-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152 : Shape := ⟨1, ![2097152]⟩
abbrev S1048576 : Shape := ⟨1, ![1048576]⟩
abbrev S16777216 : Shape := ⟨1, ![16777216]⟩
abbrev S_ : Shape := ⟨0, ![]⟩

class Facts : Prop where
  bcast_S_S2097152 : S_.BroadcastsInDim S2097152 (![] : Fin 0 → Fin S2097152.rank)
  reducesTo_S2097152_S_d0 : S2097152.ReducesTo [0] S_
  h_S_ : 0 < S_.numel
  bcast_S_S1048576 : S_.BroadcastsInDim S1048576 (![] : Fin 0 → Fin S1048576.rank)
  reducesTo_S1048576_S_d0 : S1048576.ReducesTo [0] S_

variable [Facts]

def fn {F : FTy → Type} [FloatOps F] (main_arg0 : FVec F S2097152 .f32) (main_arg1 : FVec F S1048576 .f32) (main_arg2 : FVec F S1048576 .f32) (main_arg3 : IVec S16777216 32) (main_arg4 : IVec S16777216 32) : IVec S_ 1 :=
  let main_v0 : FVec F S2097152 .f32 := Host.absf main_arg0
  let main_cst : FVec F S_ .f32 := constant S_ .f32 0x7F800000#32
  let main_v1 : FVec F S2097152 .f32 := broadcastInDim S2097152 ![] bcast_S_S2097152 main_cst
  let main_v2 : IVec S2097152 1 := cmpf .olt main_v0 main_v1
  let main_c : IVec S_ 1 := constantI S_ 1 1#1
  let main_v3 : IVec S_ 1 := (fun x v => Host.reduce IntOp.andi x v reducesTo_S2097152_S_d0 h_S_) main_v2 main_c
  let main_v4 : FVec F S1048576 .f32 := Host.absf main_arg1
  let main_cst_0 : FVec F S_ .f32 := constant S_ .f32 0x7F800000#32
  let main_v5 : FVec F S1048576 .f32 := broadcastInDim S1048576 ![] bcast_S_S1048576 main_cst_0
  let main_v6 : IVec S1048576 1 := cmpf .olt main_v4 main_v5
  let main_c_1 : IVec S_ 1 := constantI S_ 1 1#1
  let main_v7 : IVec S_ 1 := (fun x v => Host.reduce IntOp.andi x v reducesTo_S1048576_S_d0 h_S_) main_v6 main_c_1
  let main_v8 : IVec S_ 1 := andi main_v3 main_v7
  let main_v9 : FVec F S1048576 .f32 := Host.absf main_arg2
  let main_cst_2 : FVec F S_ .f32 := constant S_ .f32 0x7F800000#32
  let main_v10 : FVec F S1048576 .f32 := broadcastInDim S1048576 ![] bcast_S_S1048576 main_cst_2
  let main_v11 : IVec S1048576 1 := cmpf .olt main_v9 main_v10
  let main_c_3 : IVec S_ 1 := constantI S_ 1 1#1
  let main_v12 : IVec S_ 1 := (fun x v => Host.reduce IntOp.andi x v reducesTo_S1048576_S_d0 h_S_) main_v11 main_c_3
  let main_v13 : IVec S_ 1 := andi main_v8 main_v12
  main_v13
-- ==== Kernel.lean ====
abbrev S2097152 : Shape := ⟨1, ![2097152]⟩
abbrev S1048576 : Shape := ⟨1, ![1048576]⟩
abbrev S16777216 : Shape := ⟨1, ![16777216]⟩
abbrev S_ : Shape := ⟨0, ![]⟩
abbrev S1048576x1 : Shape := ⟨2, ![1048576, 1]⟩
abbrev S1048576x2 : Shape := ⟨2, ![1048576, 2]⟩
abbrev S16777216x1 : Shape := ⟨2, ![16777216, 1]⟩
abbrev S16777216x2 : Shape := ⟨2, ![16777216, 2]⟩
abbrev S16384x1024 : Shape := ⟨2, ![16384, 1024]⟩
abbrev S512x1024 : Shape := ⟨2, ![512, 1024]⟩
abbrev S33554432 : Shape := ⟨1, ![33554432]⟩
abbrev S33554432x1 : Shape := ⟨2, ![33554432, 1]⟩

abbrev nBuf : Space → Nat
  | .hbm => 83
  | .vmem => 8
  | .smem => 0
  | _ => 0

abbrev bufTy : (tb : Table) → Fin (tcTables nBuf tb) → BufTy
  | .hbm, ⟨0, _⟩ => ⟨S2097152, .f32⟩
  | .hbm, ⟨1, _⟩ => ⟨S1048576, .f32⟩
  | .hbm, ⟨2, _⟩ => ⟨S1048576, .f32⟩
  | .hbm, ⟨3, _⟩ => ⟨S16777216, .i32⟩
  | .hbm, ⟨4, _⟩ => ⟨S16777216, .i32⟩
  | .hbm, ⟨5, _⟩ => ⟨S1048576, .f32⟩
  | .hbm, ⟨6, _⟩ => ⟨S_, .f32⟩
  | .hbm, ⟨7, _⟩ => ⟨S1048576, .f32⟩
  | .hbm, ⟨8, _⟩ => ⟨S1048576, .f32⟩
  | .hbm, ⟨9, _⟩ => ⟨S1048576, .f32⟩
  | .hbm, ⟨10, _⟩ => ⟨S1048576, .f32⟩
  | .hbm, ⟨11, _⟩ => ⟨S_, .f32⟩
  | .hbm, ⟨12, _⟩ => ⟨S1048576, .f32⟩
  | .hbm, ⟨13, _⟩ => ⟨S1048576, .f32⟩
  | .hbm, ⟨14, _⟩ => ⟨S1048576, .f32⟩
  | .hbm, ⟨15, _⟩ => ⟨S1048576x1, .f32⟩
  | .hbm, ⟨16, _⟩ => ⟨S1048576x1, .f32⟩
  | .hbm, ⟨17, _⟩ => ⟨S1048576x2, .f32⟩
  | .hbm, ⟨18, _⟩ => ⟨S_, .i32⟩
  | .hbm, ⟨19, _⟩ => ⟨S16777216, .i32⟩
  | .hbm, ⟨20, _⟩ => ⟨S16777216, .i1⟩
  | .hbm, ⟨21, _⟩ => ⟨S_, .i32⟩
  | .hbm, ⟨22, _⟩ => ⟨S16777216, .i32⟩
  | .hbm, ⟨23, _⟩ => ⟨S16777216, .i32⟩
  | .hbm, ⟨24, _⟩ => ⟨S16777216, .i32⟩
  | .hbm, ⟨25, _⟩ => ⟨S16777216x1, .i32⟩
  | .hbm, ⟨26, _⟩ => ⟨S16777216x2, .f32⟩
  | .hbm, ⟨27, _⟩ => ⟨S_, .i32⟩
  | .hbm, ⟨28, _⟩ => ⟨S16777216, .i32⟩
  | .hbm, ⟨29, _⟩ => ⟨S16777216, .i1⟩
  | .hbm, ⟨30, _⟩ => ⟨S_, .i32⟩
  | .hbm, ⟨31, _⟩ => ⟨S16777216, .i32⟩
  | .hbm, ⟨32, _⟩ => ⟨S16777216, .i32⟩
  | .hbm, ⟨33, _⟩ => ⟨S16777216, .i32⟩
  | .hbm, ⟨34, _⟩ => ⟨S16777216x1, .i32⟩
  | .hbm, ⟨35, _⟩ => ⟨S16777216x2, .f32⟩
  | .hbm, ⟨36, _⟩ => ⟨S16777216x1, .f32⟩
  | .hbm, ⟨37, _⟩ => ⟨S16777216, .f32⟩
  | .hbm, ⟨38, _⟩ => ⟨S16777216x1, .f32⟩
  | .hbm, ⟨39, _⟩ => ⟨S16777216, .f32⟩
  | .hbm, ⟨40, _⟩ => ⟨S16777216, .f32⟩
  | .hbm, ⟨41, _⟩ => ⟨S16777216x1, .f32⟩
  | .hbm, ⟨42, _⟩ => ⟨S16777216, .f32⟩
  | .hbm, ⟨43, _⟩ => ⟨S16777216x1, .f32⟩
  | .hbm, ⟨44, _⟩ => ⟨S16777216, .f32⟩
  | .hbm, ⟨45, _⟩ => ⟨S16777216, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16777216, .f32⟩
  | .hbm, ⟨51, _⟩ => ⟨S16777216, .f32⟩
  | .hbm, ⟨52, _⟩ => ⟨S33554432, .i32⟩
  | .hbm, ⟨53, _⟩ => ⟨S16777216, .f32⟩
  | .hbm, ⟨54, _⟩ => ⟨S33554432, .f32⟩
  | .hbm, ⟨55, _⟩ => ⟨S16777216, .f32⟩
  | .hbm, ⟨56, _⟩ => ⟨S33554432, .f32⟩
  | .hbm, ⟨57, _⟩ => ⟨S_, .f32⟩
  | .hbm, ⟨58, _⟩ => ⟨S1048576, .f32⟩
  | .hbm, ⟨59, _⟩ => ⟨S_, .i32⟩
  | .hbm, ⟨60, _⟩ => ⟨S33554432, .i32⟩
  | .hbm, ⟨61, _⟩ => ⟨S33554432, .i1⟩
  | .hbm, ⟨62, _⟩ => ⟨S_, .i32⟩
  | .hbm, ⟨63, _⟩ => ⟨S33554432, .i32⟩
  | .hbm, ⟨64, _⟩ => ⟨S33554432, .i32⟩
  | .hbm, ⟨65, _⟩ => ⟨S33554432, .i32⟩
  | .hbm, ⟨66, _⟩ => ⟨S33554432x1, .i32⟩
  | .hbm, ⟨67, _⟩ => ⟨S1048576, .f32⟩
  | .hbm, ⟨68, _⟩ => ⟨S_, .f32⟩
  | .hbm, ⟨69, _⟩ => ⟨S1048576, .f32⟩
  | .hbm, ⟨70, _⟩ => ⟨S_, .i32⟩
  | .hbm, ⟨71, _⟩ => ⟨S33554432, .i32⟩
  | .hbm, ⟨72, _⟩ => ⟨S33554432, .i1⟩
  | .hbm, ⟨73, _⟩ => ⟨S_, .i32⟩
  | .hbm, ⟨74, _⟩ => ⟨S33554432, .i32⟩
  | .hbm, ⟨75, _⟩ => ⟨S33554432, .i32⟩
  | .hbm, ⟨76, _⟩ => ⟨S33554432, .i32⟩
  | .hbm, ⟨77, _⟩ => ⟨S33554432x1, .i32⟩
  | .hbm, ⟨78, _⟩ => ⟨S1048576, .f32⟩
  | .hbm, ⟨79, _⟩ => ⟨S2097152, .f32⟩
  | .hbm, ⟨80, _⟩ => ⟨S2097152, .f32⟩
  | .hbm, ⟨81, _⟩ => ⟨S_, .f32⟩
  | .hbm, ⟨82, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S2097152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_v18 : Ref sig .tc := ⟨.hbm, 28, rfl⟩
abbrev main_v19 : Ref sig .tc := ⟨.hbm, 29, rfl⟩
abbrev main_c_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37_0 : Ref sig .tc := ⟨.hbm, 48, rfl⟩
abbrev main_v37_1 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_4 : Ref sig .tc := ⟨.hbm, 57, rfl⟩
abbrev main_v45 : Ref sig .tc := ⟨.hbm, 58, rfl⟩
abbrev main_c_5 : Ref sig .tc := ⟨.hbm, 59, rfl⟩
abbrev main_v46 : Ref sig .tc := ⟨.hbm, 60, rfl⟩
abbrev main_v47 : Ref sig .tc := ⟨.hbm, 61, rfl⟩
abbrev main_c_6 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_7 : Ref sig .tc := ⟨.hbm, 68, rfl⟩
abbrev main_v53 : Ref sig .tc := ⟨.hbm, 69, rfl⟩
abbrev main_c_8 : Ref sig .tc := ⟨.hbm, 70, rfl⟩
abbrev main_v54 : Ref sig .tc := ⟨.hbm, 71, rfl⟩
abbrev main_v55 : Ref sig .tc := ⟨.hbm, 72, rfl⟩
abbrev main_c_9 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_10 : Ref sig .tc := ⟨.hbm, 81, rfl⟩
abbrev main_v63 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2097152_S1048576_0 : S2097152.Slices ![0] S1048576
  bcast_S_S1048576 : S_.BroadcastsInDim S1048576 (![] : Fin 0 → Fin S1048576.rank)
  slices_S2097152_S1048576_1048576 : S2097152.Slices ![1048576] S1048576
  bcast_S1048576_S1048576x1_0 : S1048576.BroadcastsInDim S1048576x1 (![0] : Fin 1 → Fin S1048576x1.rank)
  concatenates_S1048576x1_S1048576x1_S1048576x2_d1 : Shape.Concatenates [S1048576x1, S1048576x1] S1048576x2 1
  bcast_S_S16777216 : S_.BroadcastsInDim S16777216 (![] : Fin 0 → Fin S16777216.rank)
  bcast_S16777216_S16777216x1_0 : S16777216.BroadcastsInDim S16777216x1 (![0] : Fin 1 → Fin S16777216x1.rank)
  slices_S16777216x2_S16777216x1_0_0 : S16777216x2.Slices ![0, 0] S16777216x1
  shapeCasts_S16777216x1_S16777216 : S16777216x1.ShapeCasts S16777216
  slices_S16777216x2_S16777216x1_0_1 : S16777216x2.Slices ![0, 1] S16777216x1
  shapeCasts_S16777216_S16384x1024 : S16777216.ShapeCasts S16384x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  shapeCasts_S16384x1024_S16777216 : S16384x1024.ShapeCasts S16777216
  concatenates_S16777216_S16777216_S33554432_d0 : Shape.Concatenates [S16777216, S16777216] S33554432 0
  bcast_S_S33554432 : S_.BroadcastsInDim S33554432 (![] : Fin 0 → Fin S33554432.rank)
  bcast_S33554432_S33554432x1_0 : S33554432.BroadcastsInDim S33554432x1 (![0] : Fin 1 → Fin S33554432x1.rank)
  concatenates_S1048576_S1048576_S2097152_d0 : Shape.Concatenates [S1048576, S1048576] S2097152 0
  reducesTo_S2097152_S_d0 : S2097152.ReducesTo [0] S_
  h_S_ : 0 < S_.numel
  gather_S1048576x2_S16777216x1_S16777216x2_1_0_n_n_0_1_12_wf : GatherDims.WF S1048576x2 S16777216x1 S16777216x2 [1] [0] [] [0] [] 1 ![1, 2]
  scatter_S1048576_S33554432x1_S33554432_n_0_0_1_wf : ScatterDims.WF S1048576 S33554432x1 S33554432 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S16384x1024.size a
  hwx0_1 : ∀ i : grid0.Coords, EltTy.bits .f32 = 32 ∨ (Rect.block (s := S16384x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S16384x1024.size a
  hwx0_2 : ∀ i : grid0.Coords, EltTy.bits .f32 = 32 ∨ (Rect.block (s := S16384x1024) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S16384x1024.size a
  hwx0_3 : ∀ i : grid0.Coords, EltTy.bits .f32 = 32 ∨ (Rect.block (s := S16384x1024) S512x1024.size (cc0_transform_3 i) (hinb0_3 i)).WholeWords (EltTy.packing .f32)

variable [Facts₀]

def gather_S1048576x2_S16777216x1_S16777216x2_1_0_n_n_0_1_12 : GatherDims S1048576x2 S16777216x1 S16777216x2 where
  offsetDims := [1]
  collapsedSliceDims := [0]
  operandBatchingDims := []
  startIndicesBatchingDims := []
  startIndexMap := [0]
  indexVectorDim := 1
  sliceSizes := ![1, 2]
  wf := gather_S1048576x2_S16777216x1_S16777216x2_1_0_n_n_0_1_12_wf
def scatter_S1048576_S33554432x1_S33554432_n_0_0_1 : ScatterDims S1048576 S33554432x1 S33554432 where
  updateWindowDims := []
  insertedWindowDims := [0]
  scatterDimsToOperandDims := [0]
  indexVectorDim := 1
  wf := scatter_S1048576_S33554432x1_S33554432_n_0_0_1_wf

abbrev win0_0 : Pipeline.Window sig grid0 :=
  Pipeline.Window.ofSpec (Memref.whole main_v35) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v37_0) S512x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v37_1) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2097152 : Shape := ⟨1, ![2097152]⟩
abbrev S1048576 : Shape := ⟨1, ![1048576]⟩
abbrev S16777216 : Shape := ⟨1, ![16777216]⟩
abbrev S_ : Shape := ⟨0, ![]⟩
abbrev S16777216x1 : Shape := ⟨2, ![16777216, 1]⟩

abbrev nBuf : Space → Nat
  | .hbm => 127
  | .vmem => 0
  | .smem => 0
  | _ => 0

abbrev bufTy : (tb : Table) → Fin (tcTables nBuf tb) → BufTy
  | .hbm, ⟨0, _⟩ => ⟨S2097152, .f32⟩
  | .hbm, ⟨1, _⟩ => ⟨S1048576, .f32⟩
  | .hbm, ⟨2, _⟩ => ⟨S1048576, .f32⟩
  | .hbm, ⟨3, _⟩ => ⟨S16777216, .i32⟩
  | .hbm, ⟨4, _⟩ => ⟨S16777216, .i32⟩
  | .hbm, ⟨5, _⟩ => ⟨S1048576, .f32⟩
  | .hbm, ⟨6, _⟩ => ⟨S_, .f32⟩
  | .hbm, ⟨7, _⟩ => ⟨S1048576, .f32⟩
  | .hbm, ⟨8, _⟩ => ⟨S1048576, .f32⟩
  | .hbm, ⟨9, _⟩ => ⟨S1048576, .f32⟩
  | .hbm, ⟨10, _⟩ => ⟨S1048576, .f32⟩
  | .hbm, ⟨11, _⟩ => ⟨S_, .f32⟩
  | .hbm, ⟨12, _⟩ => ⟨S1048576, .f32⟩
  | .hbm, ⟨13, _⟩ => ⟨S1048576, .f32⟩
  | .hbm, ⟨14, _⟩ => ⟨S1048576, .f32⟩
  | .hbm, ⟨15, _⟩ => ⟨S_, .i32⟩
  | .hbm, ⟨16, _⟩ => ⟨S16777216, .i32⟩
  | .hbm, ⟨17, _⟩ => ⟨S16777216, .i1⟩
  | .hbm, ⟨18, _⟩ => ⟨S_, .i32⟩
  | .hbm, ⟨19, _⟩ => ⟨S16777216, .i32⟩
  | .hbm, ⟨20, _⟩ => ⟨S16777216, .i32⟩
  | .hbm, ⟨21, _⟩ => ⟨S16777216, .i32⟩
  | .hbm, ⟨22, _⟩ => ⟨S16777216x1, .i32⟩
  | .hbm, ⟨23, _⟩ => ⟨S16777216, .f32⟩
  | .hbm, ⟨24, _⟩ => ⟨S_, .i32⟩
  | .hbm, ⟨25, _⟩ => ⟨S16777216, .i32⟩
  | .hbm, ⟨26, _⟩ => ⟨S16777216, .i1⟩
  | .hbm, ⟨27, _⟩ => ⟨S_, .i32⟩
  | .hbm, ⟨28, _⟩ => ⟨S16777216, .i32⟩
  | .hbm, ⟨29, _⟩ => ⟨S16777216, .i32⟩
  | .hbm, ⟨30, _⟩ => ⟨S16777216, .i32⟩
  | .hbm, ⟨31, _⟩ => ⟨S16777216x1, .i32⟩
  | .hbm, ⟨32, _⟩ => ⟨S16777216, .f32⟩
  | .hbm, ⟨33, _⟩ => ⟨S16777216, .f32⟩
  | .hbm, ⟨34, _⟩ => ⟨S_, .i32⟩
  | .hbm, ⟨35, _⟩ => ⟨S16777216, .i32⟩
  | .hbm, ⟨36, _⟩ => ⟨S16777216, .i1⟩
  | .hbm, ⟨37, _⟩ => ⟨S_, .i32⟩
  | .hbm, ⟨38, _⟩ => ⟨S16777216, .i32⟩
  | .hbm, ⟨39, _⟩ => ⟨S16777216, .i32⟩
  | .hbm, ⟨40, _⟩ => ⟨S16777216, .i32⟩
  | .hbm, ⟨41, _⟩ => ⟨S16777216x1, .i32⟩
  | .hbm, ⟨42, _⟩ => ⟨S16777216, .f32⟩
  | .hbm, ⟨43, _⟩ => ⟨S_, .i32⟩
  | .hbm, ⟨44, _⟩ => ⟨S16777216, .i32⟩
  | .hbm, ⟨45, _⟩ => ⟨S16777216, .i1⟩
  | .hbm, ⟨46, _⟩ => ⟨S_, .i32⟩
  | .hbm, ⟨47, _⟩ => ⟨S16777216, .i32⟩
  | .hbm, ⟨48, _⟩ => ⟨S16777216, .i32⟩
  | .hbm, ⟨49, _⟩ => ⟨S16777216, .i32⟩
  | .hbm, ⟨50, _⟩ => ⟨S16777216x1, .i32⟩
  | .hbm, ⟨51, _⟩ => ⟨S16777216, .f32⟩
  | .hbm, ⟨52, _⟩ => ⟨S16777216, .f32⟩
  | .hbm, ⟨53, _⟩ => ⟨S16777216, .f32⟩
  | .hbm, ⟨54, _⟩ => ⟨S_, .f32⟩
  | .hbm, ⟨55, _⟩ => ⟨S16777216, .f32⟩
  | .hbm, ⟨56, _⟩ => ⟨S16777216, .i1⟩
  | .hbm, ⟨57, _⟩ => ⟨S16777216, .f32⟩
  | .hbm, ⟨58, _⟩ => ⟨S_, .f32⟩
  | .hbm, ⟨59, _⟩ => ⟨S16777216, .f32⟩
  | .hbm, ⟨60, _⟩ => ⟨S16777216, .i1⟩
  | .hbm, ⟨61, _⟩ => ⟨S16777216, .i1⟩
  | .hbm, ⟨62, _⟩ => ⟨S16777216, .f32⟩
  | .hbm, ⟨63, _⟩ => ⟨S16777216, .f32⟩
  | .hbm, ⟨64, _⟩ => ⟨S16777216, .f32⟩
  | .hbm, ⟨65, _⟩ => ⟨S_, .f32⟩
  | .hbm, ⟨66, _⟩ => ⟨S16777216, .f32⟩
  | .hbm, ⟨67, _⟩ => ⟨S16777216, .f32⟩
  | .hbm, ⟨68, _⟩ => ⟨S_, .f32⟩
  | .hbm, ⟨69, _⟩ => ⟨S16777216, .f32⟩
  | .hbm, ⟨70, _⟩ => ⟨S16777216, .f32⟩
  | .hbm, ⟨71, _⟩ => ⟨S16777216, .f32⟩
  | .hbm, ⟨72, _⟩ => ⟨S_, .f32⟩
  | .hbm, ⟨73, _⟩ => ⟨S_, .f32⟩
  | .hbm, ⟨74, _⟩ => ⟨S16777216, .f32⟩
  | .hbm, ⟨75, _⟩ => ⟨S16777216, .f32⟩
  | .hbm, ⟨76, _⟩ => ⟨S16777216, .f32⟩
  | .hbm, ⟨77, _⟩ => ⟨S_, .f32⟩
  | .hbm, ⟨78, _⟩ => ⟨S_, .f32⟩
  | .hbm, ⟨79, _⟩ => ⟨S16777216, .f32⟩
  | .hbm, ⟨80, _⟩ => ⟨S16777216, .f32⟩
  | .hbm, ⟨81, _⟩ => ⟨S_, .f32⟩
  | .hbm, ⟨82, _⟩ => ⟨S1048576, .f32⟩
  | .hbm, ⟨83, _⟩ => ⟨S_, .i32⟩
  | .hbm, ⟨84, _⟩ => ⟨S16777216, .i32⟩
  | .hbm, ⟨85, _⟩ => ⟨S16777216, .i1⟩
  | .hbm, ⟨86, _⟩ => ⟨S_, .i32⟩
  | .hbm, ⟨87, _⟩ => ⟨S16777216, .i32⟩
  | .hbm, ⟨88, _⟩ => ⟨S16777216, .i32⟩
  | .hbm, ⟨89, _⟩ => ⟨S16777216, .i32⟩
  | .hbm, ⟨90, _⟩ => ⟨S16777216x1, .i32⟩
  | .hbm, ⟨91, _⟩ => ⟨S1048576, .f32⟩
  | .hbm, ⟨92, _⟩ => ⟨S16777216, .f32⟩
  | .hbm, ⟨93, _⟩ => ⟨S_, .i32⟩
  | .hbm, ⟨94, _⟩ => ⟨S16777216, .i32⟩
  | .hbm, ⟨95, _⟩ => ⟨S16777216, .i1⟩
  | .hbm, ⟨96, _⟩ => ⟨S_, .i32⟩
  | .hbm, ⟨97, _⟩ => ⟨S16777216, .i32⟩
  | .hbm, ⟨98, _⟩ => ⟨S16777216, .i32⟩
  | .hbm, ⟨99, _⟩ => ⟨S16777216, .i32⟩
  | .hbm, ⟨100, _⟩ => ⟨S16777216x1, .i32⟩
  | .hbm, ⟨101, _⟩ => ⟨S1048576, .f32⟩
  | .hbm, ⟨102, _⟩ => ⟨S_, .f32⟩
  | .hbm, ⟨103, _⟩ => ⟨S1048576, .f32⟩
  | .hbm, ⟨104, _⟩ => ⟨S_, .i32⟩
  | .hbm, ⟨105, _⟩ => ⟨S16777216, .i32⟩
  | .hbm, ⟨106, _⟩ => ⟨S16777216, .i1⟩
  | .hbm, ⟨107, _⟩ => ⟨S_, .i32⟩
  | .hbm, ⟨108, _⟩ => ⟨S16777216, .i32⟩
  | .hbm, ⟨109, _⟩ => ⟨S16777216, .i32⟩
  | .hbm, ⟨110, _⟩ => ⟨S16777216, .i32⟩
  | .hbm, ⟨111, _⟩ => ⟨S16777216x1, .i32⟩
  | .hbm, ⟨112, _⟩ => ⟨S1048576, .f32⟩
  | .hbm, ⟨113, _⟩ => ⟨S16777216, .f32⟩
  | .hbm, ⟨114, _⟩ => ⟨S_, .i32⟩
  | .hbm, ⟨115, _⟩ => ⟨S16777216, .i32⟩
  | .hbm, ⟨116, _⟩ => ⟨S16777216, .i1⟩
  | .hbm, ⟨117, _⟩ => ⟨S_, .i32⟩
  | .hbm, ⟨118, _⟩ => ⟨S16777216, .i32⟩
  | .hbm, ⟨119, _⟩ => ⟨S16777216, .i32⟩
  | .hbm, ⟨120, _⟩ => ⟨S16777216, .i32⟩
  | .hbm, ⟨121, _⟩ => ⟨S16777216x1, .i32⟩
  | .hbm, ⟨122, _⟩ => ⟨S1048576, .f32⟩
  | .hbm, ⟨123, _⟩ => ⟨S2097152, .f32⟩
  | .hbm, ⟨124, _⟩ => ⟨S2097152, .f32⟩
  | .hbm, ⟨125, _⟩ => ⟨S_, .f32⟩
  | .hbm, ⟨126, _⟩ => ⟨S_, .f32⟩
  | _, _ => ⟨S2097152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_c_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_4 : Ref sig .tc := ⟨.hbm, 34, rfl⟩
abbrev main_v23 : Ref sig .tc := ⟨.hbm, 35, rfl⟩
abbrev main_v24 : Ref sig .tc := ⟨.hbm, 36, rfl⟩
abbrev main_c_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_6 : Ref sig .tc := ⟨.hbm, 43, rfl⟩
abbrev main_v30 : Ref sig .tc := ⟨.hbm, 44, rfl⟩
abbrev main_v31 : Ref sig .tc := ⟨.hbm, 45, rfl⟩
abbrev main_c_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_10 : Ref sig .tc := ⟨.hbm, 65, rfl⟩
abbrev main_v48 : Ref sig .tc := ⟨.hbm, 66, rfl⟩
abbrev main_v49 : Ref sig .tc := ⟨.hbm, 67, rfl⟩
abbrev main_cst_11 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_12 : Ref sig .tc := ⟨.hbm, 72, rfl⟩
abbrev main_call0_v0 : Ref sig .tc := ⟨.hbm, 73, rfl⟩
abbrev main_call0_v1 : Ref sig .tc := ⟨.hbm, 74, rfl⟩
abbrev main_v53 : Ref sig .tc := ⟨.hbm, 75, rfl⟩
abbrev main_v54 : Ref sig .tc := ⟨.hbm, 76, rfl⟩
abbrev main_cst_13 : Ref sig .tc := ⟨.hbm, 77, rfl⟩
abbrev main_call1_v0 : Ref sig .tc := ⟨.hbm, 78, rfl⟩
abbrev main_call1_v1 : Ref sig .tc := ⟨.hbm, 79, rfl⟩
abbrev main_v55 : Ref sig .tc := ⟨.hbm, 80, rfl⟩
abbrev main_cst_14 : Ref sig .tc := ⟨.hbm, 81, rfl⟩
abbrev main_v56 : Ref sig .tc := ⟨.hbm, 82, rfl⟩
abbrev main_c_15 : Ref sig .tc := ⟨.hbm, 83, rfl⟩
abbrev main_v57 : Ref sig .tc := ⟨.hbm, 84, rfl⟩
abbrev main_v58 : Ref sig .tc := ⟨.hbm, 85, rfl⟩
abbrev main_c_16 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_c_17 : Ref sig .tc := ⟨.hbm, 93, rfl⟩
abbrev main_v65 : Ref sig .tc := ⟨.hbm, 94, rfl⟩
abbrev main_v66 : Ref sig .tc := ⟨.hbm, 95, rfl⟩
abbrev main_c_18 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_19 : Ref sig .tc := ⟨.hbm, 102, rfl⟩
abbrev main_v72 : Ref sig .tc := ⟨.hbm, 103, rfl⟩
abbrev main_c_20 : Ref sig .tc := ⟨.hbm, 104, rfl⟩
abbrev main_v73 : Ref sig .tc := ⟨.hbm, 105, rfl⟩
abbrev main_v74 : Ref sig .tc := ⟨.hbm, 106, rfl⟩
abbrev main_c_21 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_c_22 : Ref sig .tc := ⟨.hbm, 114, rfl⟩
abbrev main_v81 : Ref sig .tc := ⟨.hbm, 115, rfl⟩
abbrev main_v82 : Ref sig .tc := ⟨.hbm, 116, rfl⟩
abbrev main_c_23 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_24 : Ref sig .tc := ⟨.hbm, 125, rfl⟩
abbrev main_v90 : Ref sig .tc := ⟨.hbm, 126, rfl⟩

abbrev nD : Nat := 1
abbrev τ : Topo := Topo.v7x

variable {F : FTy → Type} [FloatOps F]

class Facts₀ : Prop where
  slices_S2097152_S1048576_0 : S2097152.Slices ![0] S1048576
  bcast_S_S1048576 : S_.BroadcastsInDim S1048576 (![] : Fin 0 → Fin S1048576.rank)
  slices_S2097152_S1048576_1048576 : S2097152.Slices ![1048576] S1048576
  bcast_S_S16777216 : S_.BroadcastsInDim S16777216 (![] : Fin 0 → Fin S16777216.rank)
  bcast_S16777216_S16777216x1_0 : S16777216.BroadcastsInDim S16777216x1 (![0] : Fin 1 → Fin S16777216x1.rank)
  concatenates_S1048576_S1048576_S2097152_d0 : Shape.Concatenates [S1048576, S1048576] S2097152 0
  reducesTo_S2097152_S_d0 : S2097152.ReducesTo [0] S_
  h_S_ : 0 < S_.numel
  gather_S1048576_S16777216x1_S16777216_n_0_n_n_0_1_1_wf : GatherDims.WF S1048576 S16777216x1 S16777216 [] [0] [] [0] [] 1 ![1]
  scatter_S1048576_S16777216x1_S16777216_n_0_0_1_wf : ScatterDims.WF S1048576 S16777216x1 S16777216 [] [0] [0] 1

variable [Facts₀]

def gather_S1048576_S16777216x1_S16777216_n_0_n_n_0_1_1 : GatherDims S1048576 S16777216x1 S16777216 where
  offsetDims := []
  collapsedSliceDims := [0]
  operandBatchingDims := []
  startIndicesBatchingDims := []
  startIndexMap := [0]
  indexVectorDim := 1
  sliceSizes := ![1]
  wf := gather_S1048576_S16777216x1_S16777216_n_0_n_n_0_1_1_wf
def scatter_S1048576_S16777216x1_S16777216_n_0_0_1 : ScatterDims S1048576 S16777216x1 S16777216 where
  updateWindowDims := []
  insertedWindowDims := [0]
  scatterDimsToOperandDims := [0]
  indexVectorDim := 1
  wf := scatter_S1048576_S16777216x1_S16777216_n_0_0_1_wf

class Facts : Prop extends Facts₀ where

variable [Facts]
-- ==== Proof.Force.lean ====
/-
  The pairwise repulsion force on one candidate pair, as a function of the pair's centre offsets (dx, dy) on the
  extended reals: inside the window |dx| < 16 and |dy| < 16 the force is the offset scaled by
  (1/2) / (dx² + dy² + ε), outside it is zero.  ε is the binary value nearest 0.01; it is the same word in both
  programs and is never evaluated.  Both programs compute exactly these two functions elementwise, one over
  [16384, 1024] blocks and one over the flat [16777216] array.
-/
import Idealize.ShloMosaic.Lib.ValueIdx

noncomputable section

namespace Cert.Force

open Idealize.ShloMosaic

/-- The window's half-width, 16. -/
abbrev thr : EReal := Ideal.ofBits .f32 0x41800000#32
/-- The softening term ε (the float nearest 0.01, as its exact binary value). -/
abbrev eps : EReal := Ideal.ofBits .f32 0x3C23D70A#32
/-- The force ratio, 1/2. -/
abbrev half : EReal := Ideal.ofBits .f32 0x3F000000#32
/-- The zero word. -/
abbrev zero : EReal := Ideal.ofBits .f32 0x00000000#32

/-- The pair is inside the threshold window on both axes: |dx| < 16 and |dy| < 16, as a bit. -/
def inWindow (dx dy : EReal) : BitVec 1 :=
  IntOp.andi (Ideal.cmp .olt (max dx (-dx)) thr) (Ideal.cmp .olt (max dy (-dy)) thr)

/-- The common scale (1/2) / (dx² + dy² + ε). -/
def coef (dx dy : EReal) : EReal := Ideal.div half (dx * dx + dy * dy + eps)

/-- The x-component of the force on the pair. -/
def fX (dx dy : EReal) : EReal := Scalar.select (inWindow dx dy) (dx * coef dx dy) zero

/-- The y-component of the force on the pair. -/
def fY (dx dy : EReal) : EReal := Scalar.select (inWindow dx dy) (dy * coef dx dy) zero

end Cert.Force

end
-- ==== Proof.KStages.lean ====
/-
  The kernel program's host lines as named functions of the five argument arrays
  (positions and sizes x0 x1 x2, the pair lists x3 x4).

  Before the region: the node centres cx = pos[:N] + ½·size_x and cy = pos[N:] + ½·size_y, stacked as the two
  columns of an [N, 2] table; each pair list wrapped (a negative index i read as i + N) and used to gather rows of
  the table; the x-offsets dx of the pairs are column 0 of the source rows minus column 0 of the destination rows,
  the y-offsets dy the same on column 1; both are regrouped as [16384, 1024] for the region.
  After the region: the two force arrays are flattened again; for each, the force and its negation are laid end to
  end and scatter-added into zeros at the two pair lists laid end to end; the energy is the sum of the absolute
  values of the two accumulated arrays.
-/
import proofs.«173889_j40604620816577_2_alg».proof.Proof.Gen.KernelIdeal
import proofs.«173889_j40604620816577_2_alg».proof.Proof.Force

noncomputable section

namespace Cert.KernelIdeal.Stages

open Cert.KernelIdeal Cert.KernelIdeal.Gen Idealize.ShloMosaic

variable {F : FTy → Type} [FloatOps F]

/-- The x-centres: the first half of the positions plus half the x-sizes. -/
def cxK (x0 : (⟨S2097152, .f32⟩ : BufTy).Contents (Elt F)) (x1 : (⟨S1048576, .f32⟩ : BufTy).Contents (Elt F)) :
    (⟨S1048576, .f32⟩ : BufTy).Contents (Elt F) :=
  addf (extractStridedSlice S1048576 ![0] x0 slices_S2097152_S1048576_0)
    (mulf (broadcastInDim S1048576 ![] bcast_S_S1048576 (constant S_ .f32 0x3F000000#32)) x1)

/-- The y-centres: the second half of the positions plus half the y-sizes. -/
def cyK (x0 : (⟨S2097152, .f32⟩ : BufTy).Contents (Elt F)) (x2 : (⟨S1048576, .f32⟩ : BufTy).Contents (Elt F)) :
    (⟨S1048576, .f32⟩ : BufTy).Contents (Elt F) :=
  addf (extractStridedSlice S1048576 ![1048576] x0 slices_S2097152_S1048576_1048576)
    (mulf (broadcastInDim S1048576 ![] bcast_S_S1048576 (constant S_ .f32 0x3F000000#32)) x2)

/-- The [N, 2] table whose row n is (cx n, cy n). -/
def tableK (x0 : (⟨S2097152, .f32⟩ : BufTy).Contents (Elt F)) (x1 x2 : (⟨S1048576, .f32⟩ : BufTy).Contents (Elt F)) :
    (⟨S1048576x2, .f32⟩ : BufTy).Contents (Elt F) :=
  concatenate S1048576x2 1 [⟨S1048576x1, broadcastInDim S1048576x1 ![0] bcast_S1048576_S1048576x1_0 (cxK x0 x1)⟩,
    ⟨S1048576x1, broadcastInDim S1048576x1 ![0] bcast_S1048576_S1048576x1_0 (cyK x0 x2)⟩]
    concatenates_S1048576x1_S1048576x1_S1048576x2_d1

/-- A pair list with negative entries wrapped: i < 0 reads as i + N. -/
def wrapK (x : (⟨S16777216, .i32⟩ : BufTy).Contents (Elt F)) : (⟨S16777216, .i32⟩ : BufTy).Contents (Elt F) :=
  select (cmpi .slt x (broadcastInDim S16777216 ![] bcast_S_S16777216 (constantI S_ 32 0#32)))
    (addi x (broadcastInDim S16777216 ![] bcast_S_S16777216 (constantI S_ 32 1048576#32))) x

/-- The wrapped list as a column of start indices. -/
def startK (x : (⟨S16777216, .i32⟩ : BufTy).Contents (Elt F)) : (⟨S16777216x1, .i32⟩ : BufTy).Contents (Elt F) :=
  broadcastInDim S16777216x1 ![0] bcast_S16777216_S16777216x1_0 (wrapK x)

/-- The table's rows at a pair list. -/
def rowsK (x0 : (⟨S2097152, .f32⟩ : BufTy).Contents (Elt F)) (x1 x2 : (⟨S1048576, .f32⟩ : BufTy).Contents (Elt F))
    (x : (⟨S16777216, .i32⟩ : BufTy).Contents (Elt F)) : (⟨S16777216x2, .f32⟩ : BufTy).Contents (Elt F) :=
  Host.gather gather_S1048576x2_S16777216x1_S16777216x2_1_0_n_n_0_1_12 (tableK x0 x1 x2) (startK x)

/-- Column 0 of gathered rows, flat. -/
def col0K (g : (⟨S16777216x2, .f32⟩ : BufTy).Contents (Elt F)) : (⟨S16777216, .f32⟩ : BufTy).Contents (Elt F) :=
  shapeCast S16777216 (extractStridedSlice S16777216x1 ![0, 0] g slices_S16777216x2_S16777216x1_0_0) shapeCasts_S16777216x1_S16777216

/-- Column 1 of gathered rows, flat. -/
def col1K (g : (⟨S16777216x2, .f32⟩ : BufTy).Contents (Elt F)) : (⟨S16777216, .f32⟩ : BufTy).Contents (Elt F) :=
  shapeCast S16777216 (extractStridedSlice S16777216x1 ![0, 1] g slices_S16777216x2_S16777216x1_0_1) shapeCasts_S16777216x1_S16777216

/-- The pairs' x-offsets. -/
def dxK (x0 : (⟨S2097152, .f32⟩ : BufTy).Contents (Elt F)) (x1 x2 : (⟨S1048576, .f32⟩ : BufTy).Contents (Elt F))
    (x3 x4 : (⟨S16777216, .i32⟩ : BufTy).Contents (Elt F)) : (⟨S16777216, .f32⟩ : BufTy).Contents (Elt F) :=
  subf (col0K (rowsK x0 x1 x2 x3)) (col0K (rowsK x0 x1 x2 x4))

/-- The pairs' y-offsets. -/
def dyK (x0 : (⟨S2097152, .f32⟩ : BufTy).Contents (Elt F)) (x1 x2 : (⟨S1048576, .f32⟩ : BufTy).Contents (Elt F))
    (x3 x4 : (⟨S16777216, .i32⟩ : BufTy).Contents (Elt F)) : (⟨S16777216, .f32⟩ : BufTy).Contents (Elt F) :=
  subf (col1K (rowsK x0 x1 x2 x3)) (col1K (rowsK x0 x1 x2 x4))

/-- The x-offsets regrouped as 16384 rows of 1024: the region's first operand. -/
def dx2K (x0 : (⟨S2097152, .f32⟩ : BufTy).Contents (Elt F)) (x1 x2 : (⟨S1048576, .f32⟩ : BufTy).Contents (Elt F))
    (x3 x4 : (⟨S16777216, .i32⟩ : BufTy).Contents (Elt F)) : (⟨S16384x1024, .f32⟩ : BufTy).Contents (Elt F) :=
  shapeCast S16384x1024 (dxK x0 x1 x2 x3 x4) shapeCasts_S16777216_S16384x1024

/-- The y-offsets regrouped likewise: the region's second operand. -/
def dy2K (x0 : (⟨S2097152, .f32⟩ : BufTy).Contents (Elt F)) (x1 x2 : (⟨S1048576, .f32⟩ : BufTy).Contents (Elt F))
    (x3 x4 : (⟨S16777216, .i32⟩ : BufTy).Contents (Elt F)) : (⟨S16384x1024, .f32⟩ : BufTy).Contents (Elt F) :=
  shapeCast S16384x1024 (dyK x0 x1 x2 x3 x4) shapeCasts_S16777216_S16384x1024

/-- The x-force array of two offset arrays, entry by entry: what the region leaves in its first result. -/
def GX (a0 a1 : S16384x1024.Idx → EReal) : S16384x1024.Idx → EReal := fun i => Cert.Force.fX (a0 i) (a1 i)
/-- The y-force array of two offset arrays: what the region leaves in its second result. -/
def GY (a0 a1 : S16384x1024.Idx → EReal) : S16384x1024.Idx → EReal := fun i => Cert.Force.fY (a0 i) (a1 i)

/-- The two pair lists laid end to end, negative entries wrapped, as a column of scatter indices. -/
def start2K (x3 x4 : (⟨S16777216, .i32⟩ : BufTy).Contents (Elt F)) : (⟨S33554432x1, .i32⟩ : BufTy).Contents (Elt F) :=
  broadcastInDim S33554432x1 ![0] bcast_S33554432_S33554432x1_0
    (select (cmpi .slt (concatenate S33554432 0 [⟨S16777216, x3⟩, ⟨S16777216, x4⟩] concatenates_S16777216_S16777216_S33554432_d0)
        (broadcastInDim S33554432 ![] bcast_S_S33554432 (constantI S_ 32 0#32)))
      (addi (concatenate S33554432 0 [⟨S16777216, x3⟩, ⟨S16777216, x4⟩] concatenates_S16777216_S16777216_S33554432_d0)
        (broadcastInDim S33554432 ![] bcast_S_S33554432 (constantI S_ 32 1048576#32)))
      (concatenate S33554432 0 [⟨S16777216, x3⟩, ⟨S16777216, x4⟩] concatenates_S16777216_S16777216_S33554432_d0))

/-- A force component accumulated on the nodes: +f at the sources and −f at the destinations, in one scatter. -/
def scatK (f : (⟨S16777216, .f32⟩ : BufTy).Contents (Elt F)) (x3 x4 : (⟨S16777216, .i32⟩ : BufTy).Contents (Elt F)) :
    (⟨S1048576, .f32⟩ : BufTy).Contents (Elt F) :=
  Host.scatterAdd scatter_S1048576_S33554432x1_S33554432_n_0_0_1
    (broadcastInDim S1048576 ![] bcast_S_S1048576 (constant S_ .f32 0x00000000#32))
    (start2K x3 x4)
    (concatenate S33554432 0 [⟨S16777216, f⟩, ⟨S16777216, Host.negf f⟩] concatenates_S16777216_S16777216_S33554432_d0)

/-- The energy: the sum of the absolute values of the two accumulated arrays laid end to end. -/
def energyK (ex ey : (⟨S1048576, .f32⟩ : BufTy).Contents (Elt F)) : (⟨S_, .f32⟩ : BufTy).Contents (Elt F) :=
  Host.reduceAdd (Host.absf (concatenate S2097152 0 [⟨S1048576, ex⟩, ⟨S1048576, ey⟩] concatenates_S1048576_S1048576_S2097152_d0))
    (constant S_ .f32 0x00000000#32) reducesTo_S2097152_S_d0 h_S_

/-- The host lines after the region, of the region's two result arrays and the pair lists. -/
def tailK (a2 a3 : (⟨S16384x1024, .f32⟩ : BufTy).Contents (Elt F)) (x3 x4 : (⟨S16777216, .i32⟩ : BufTy).Contents (Elt F)) :
    (⟨S_, .f32⟩ : BufTy).Contents (Elt F) :=
  energyK (scatK (shapeCast S16777216 a2 shapeCasts_S16384x1024_S16777216) x3 x4)
    (scatK (shapeCast S16777216 a3 shapeCasts_S16384x1024_S16777216) x3 x4)

end Cert.KernelIdeal.Stages

end
-- ==== Proof.KRegion.lean ====
/-
  The region's two result arrays.  The grid has 32 points; at point t each of the four windows is the block of rows
  512·t … 512·t + 511 (all 1024 columns) of its [16384, 1024] array.  The body loads the two offset blocks and
  stores, entry by entry, the x-force into the third window's block and the y-force into the fourth's.  The 32
  blocks tile the array, so after the region each result array is the force of the two offset arrays, index by index.
-/
import proofs.«173889_j40604620816577_2_alg».proof.Proof.Gen.KernelIdeal.Frame
import proofs.«173889_j40604620816577_2_alg».proof.Proof.KStages
import Idealize.ShloMosaic.Lib.Pipeline.Value
import Idealize.ShloMosaic.Lib.ValueIdx

noncomputable section

namespace Cert.KernelIdeal.Region

open Cert.KernelIdeal Cert.KernelIdeal.Gen Idealize.ShloMosaic Idealize.ShloMosaic.TcCoe Idealize.SL.Sem
open Idealize.ShloMosaic.Pipeline (Dat)
open Cert.KernelIdeal.Stages (GX GY)

variable (m : (ℓ : Loc nD τ sig) → Buf (Elt Ideal) ℓ)

theorem hz : (![0, 0] : Fin 2 → Nat) = fun _ => 0 := funext fun a => by fin_cases a <;> rfl

/-- A cast of a block to its own shape is the block. -/
theorem pay1_eq (v : Vec Ideal S512x1024 .f32) : k0_pay1 v = v := shapeCast_self _ _
theorem pay2_eq (v : Vec Ideal S512x1024 .f32) : k0_pay2 v = v := shapeCast_self _ _

/-! ## Output window 2 -/

/-- The body's payload for this window is the x-force of the two loaded blocks, entry by entry. -/
theorem pay5_eq (x0 x1 : Vec Ideal S512x1024 .f32) :
    k0_pay5 x0 x1 = fun j => Cert.Force.fX (x0 j) (x1 j) := by
  unfold k0_pay5 k0_pay4 k0_pay3
  simp only [pay1_eq, pay2_eq]
  rfl

/-- The four windows move together: at point t every window's block is row-block t, column-block 0. -/
theorem idx_facts2 : ∀ t : Fin cfg0.N, win0_0.index t (0 : Fin 2) = win0_2.index t (0 : Fin 2) + 0
    ∧ win0_0.index t (1 : Fin 2) = win0_2.index t (1 : Fin 2) + 0
    ∧ win0_1.index t (0 : Fin 2) = win0_2.index t (0 : Fin 2) + 0
    ∧ win0_1.index t (1 : Fin 2) = win0_2.index t (1 : Fin 2) + 0
    ∧ win0_2.index t (0 : Fin 2) ≤ 31
    ∧ win0_2.index t (1 : Fin 2) ≤ 0 :=
  (by decide +kernel : ∀ t : Fin grid0.N, _)

/-- Every row-block of the array is some point's block. -/
theorem idx_onto2 : ∀ (q0 : Fin 32), ∃ t : Fin cfg0.N, win0_2.index t = ![q0.val, 0] :=
  (by decide +kernel : ∀ (q0 : Fin 32), ∃ t : Fin grid0.N, win0_2.index t = ![q0.val, 0])

/-- What point t writes back is block t of the force array of the two offset arrays. -/
theorem flushed2_eq (c : Dev nD) (t : Fin cfg0.N) :
    (dats m 0 c).flushed 2 t = ((cfg0.win 2).blk t).view.read (Elt Ideal) (GX (V m c main_v35) (V m c main_v36)) := by
  show (cfg0.win 2).cut (grid0.coords t) ((dats m 0 c).after 2 t) = _
  rw [after0_2]
  unfold out0_2
  rw [View.canon_unit_zero hz]
  simp only [View.ld_unit_zero (S := S512x1024) hz]
  rw [pay5_eq]
  obtain ⟨e0, e1, e2, e3, e4, e5⟩ := idx_facts2 t
  funext j
  show Cert.Force.fX (V m c main_v35 (((cfg0.win 0).blk t).view.emb j)) (V m c main_v36 (((cfg0.win 1).blk t).view.emb j))
    = Cert.Force.fX (V m c main_v35 (((cfg0.win 2).blk t).view.emb j)) (V m c main_v36 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 512 + 1 * (j 0).val = win0_2.index t (0 : Fin 2) * 512 + 1 * (j 0).val; omega
    | ⟨1, _⟩ => show win0_0.index t (1 : Fin 2) * 1024 + 1 * (j 1).val = win0_2.index t (1 : Fin 2) * 1024 + 1 * (j 1).val; omega
  have h1 : ((cfg0.win 1).blk t).view.emb j = ((cfg0.win 2).blk t).view.emb j := by
    funext a; apply Fin.ext
    match a with
    | ⟨0, _⟩ => show win0_1.index t (0 : Fin 2) * 512 + 1 * (j 0).val = win0_2.index t (0 : Fin 2) * 512 + 1 * (j 0).val; omega
    | ⟨1, _⟩ => show win0_1.index t (1 : Fin 2) * 1024 + 1 * (j 1).val = win0_2.index t (1 : Fin 2) * 1024 + 1 * (j 1).val; omega
  rw [h0, h1]

/-- An index of the array is in point t's block iff each coordinate is in the block's range on its axis. -/
theorem mem_blk2 (t : Fin cfg0.N) (i : S16384x1024.Idx) :
    i ∈ ((cfg0.win 2).blk t).view.set ↔ ∀ a : Fin 2, win0_2.index t a * S512x1024.size a ≤ (i a).val
      ∧ (i a).val < win0_2.index t a * S512x1024.size a + S512x1024.size a := by
  show i ∈ ((View.whole main_v37_0).slice (win0_2.rect t)).set ↔ _
  rw [View.set_slice_whole, Rect.mem_set_unit]
  exact Iff.rfl

/-- The 32 row-blocks of 512 rows tile the 16384 rows: row r lies in the block of point r / 512. -/
theorem cover2 (i : S16384x1024.Idx) :
    ∃ t : Fin cfg0.N, (cfg0.win 2).flush t = true ∧ i ∈ ((cfg0.win 2).blk t).view.set := by
  have hi0 : (i 0).val < 16384 := (i 0).isLt
  have hi1 : (i 1).val < 1024 := (i 1).isLt
  obtain ⟨t, ht⟩ := idx_onto2 ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_blk2]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1024 ≤ (i 1).val ∧ (i 1).val < win0_2.index t (1 : Fin 2) * 1024 + 1024; omega

/-- After the region the window's whole array is the force array of the two offset arrays. -/
theorem final2 (c : Dev nD) : (dats m 0 c).arrAt 2 cfg0.N = GX (V m c main_v35) (V m c main_v36) :=
  (dats m 0 c).arrAt_eq_of_cover 2 (GX (V m c main_v35) (V m c main_v36)) (fun t _ => flushed2_eq m c t) cover2

/-! ## Output window 3 -/

/-- The body's payload for this window is the y-force of the two loaded blocks, entry by entry. -/
theorem pay6_eq (x0 x1 : Vec Ideal S512x1024 .f32) :
    k0_pay6 x0 x1 = fun j => Cert.Force.fY (x0 j) (x1 j) := by
  unfold k0_pay6 k0_pay4 k0_pay3
  simp only [pay1_eq, pay2_eq]
  rfl

/-- The four windows move together: at point t every window's block is row-block t, column-block 0. -/
theorem idx_facts3 : ∀ t : Fin cfg0.N, win0_0.index t (0 : Fin 2) = win0_3.index t (0 : Fin 2) + 0
    ∧ win0_0.index t (1 : Fin 2) = win0_3.index t (1 : Fin 2) + 0
    ∧ win0_1.index t (0 : Fin 2) = win0_3.index t (0 : Fin 2) + 0
    ∧ win0_1.index t (1 : Fin 2) = win0_3.index t (1 : Fin 2) + 0
    ∧ win0_3.index t (0 : Fin 2) ≤ 31
    ∧ win0_3.index t (1 : Fin 2) ≤ 0 :=
  (by decide +kernel : ∀ t : Fin grid0.N, _)

/-- Every row-block of the array is some point's block. -/
theorem idx_onto3 : ∀ (q0 : Fin 32), ∃ t : Fin cfg0.N, win0_3.index t = ![q0.val, 0] :=
  (by decide +kernel : ∀ (q0 : Fin 32), ∃ t : Fin grid0.N, win0_3.index t = ![q0.val, 0])

/-- What point t writes back is block t of the force array of the two offset arrays. -/
theorem flushed3_eq (c : Dev nD) (t : Fin cfg0.N) :
    (dats m 0 c).flushed 3 t = ((cfg0.win 3).blk t).view.read (Elt Ideal) (GY (V m c main_v35) (V m c main_v36)) := by
  show (cfg0.win 3).cut (grid0.coords t) ((dats m 0 c).after 3 t) = _
  rw [after0_3]
  unfold out0_3
  rw [View.canon_unit_zero hz]
  simp only [View.ld_unit_zero (S := S512x1024) hz]
  rw [pay6_eq]
  obtain ⟨e0, e1, e2, e3, e4, e5⟩ := idx_facts3 t
  funext j
  show Cert.Force.fY (V m c main_v35 (((cfg0.win 0).blk t).view.emb j)) (V m c main_v36 (((cfg0.win 1).blk t).view.emb j))
    = Cert.Force.fY (V m c main_v35 (((cfg0.win 3).blk t).view.emb j)) (V m c main_v36 (((cfg0.win 3).blk t).view.emb j))
  have h0 : ((cfg0.win 0).blk t).view.emb j = ((cfg0.win 3).blk t).view.emb j := by
    funext a; apply Fin.ext
    match a with
    | ⟨0, _⟩ => show win0_0.index t (0 : Fin 2) * 512 + 1 * (j 0).val = win0_3.index t (0 : Fin 2) * 512 + 1 * (j 0).val; omega
    | ⟨1, _⟩ => show win0_0.index t (1 : Fin 2) * 1024 + 1 * (j 1).val = win0_3.index t (1 : Fin 2) * 1024 + 1 * (j 1).val; omega
  have h1 : ((cfg0.win 1).blk t).view.emb j = ((cfg0.win 3).blk t).view.emb j := by
    funext a; apply Fin.ext
    match a with
    | ⟨0, _⟩ => show win0_1.index t (0 : Fin 2) * 512 + 1 * (j 0).val = win0_3.index t (0 : Fin 2) * 512 + 1 * (j 0).val; omega
    | ⟨1, _⟩ => show win0_1.index t (1 : Fin 2) * 1024 + 1 * (j 1).val = win0_3.index t (1 : Fin 2) * 1024 + 1 * (j 1).val; omega
  rw [h0, h1]

/-- An index of the array is in point t's block iff each coordinate is in the block's range on its axis. -/
theorem mem_blk3 (t : Fin cfg0.N) (i : S16384x1024.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v37_1).slice (win0_3.rect t)).set ↔ _
  rw [View.set_slice_whole, Rect.mem_set_unit]
  exact Iff.rfl

/-- The 32 row-blocks of 512 rows tile the 16384 rows: row r lies in the block of point r / 512. -/
theorem cover3 (i : S16384x1024.Idx) :
    ∃ t : Fin cfg0.N, (cfg0.win 3).flush t = true ∧ i ∈ ((cfg0.win 3).blk t).view.set := by
  have hi0 : (i 0).val < 16384 := (i 0).isLt
  have hi1 : (i 1).val < 1024 := (i 1).isLt
  obtain ⟨t, ht⟩ := idx_onto3 ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_blk3]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- After the region the window's whole array is the force array of the two offset arrays. -/
theorem final3 (c : Dev nD) : (dats m 0 c).arrAt 3 cfg0.N = GY (V m c main_v35) (V m c main_v36) :=
  (dats m 0 c).arrAt_eq_of_cover 3 (GY (V m c main_v35) (V m c main_v36)) (fun t _ => flushed3_eq m c t) cover3

end Cert.KernelIdeal.Region

end
-- ==== Proof.KHost.lean ====
/-
  The kernel program's host lines read back as the named stages.  Before the region: the region finds its two
  operands at the regrouped offsets dx, dy of the argument arrays.  After the region: @main's result is the host tail
  (flatten, accumulate +f at the sources and −f at the destinations, sum of absolute values) of the region's two
  result arrays and the two pair lists, which no host line writes.
-/
import proofs.«173889_j40604620816577_2_alg».proof.Proof.Gen.KernelIdeal.Frame
import proofs.«173889_j40604620816577_2_alg».proof.Proof.KStages
import Idealize.ShloMosaic.Lib.StableHlo.Run

noncomputable section

namespace Cert.KernelIdeal.HostRead

open Cert.KernelIdeal Cert.KernelIdeal.Gen Cert.KernelIdeal.Stages
open Idealize.ShloMosaic Idealize.ShloMosaic.TcCoe Idealize.ShloMosaic.Tactic Idealize.SL.Sem Idealize.ShloMosaic.StableHlo

variable (m : (ℓ : Loc nD τ sig) → Buf (Elt Ideal) ℓ)

set_option maxHeartbeats 2000000 in
/-- The region's first operand is the regrouped x-offsets of the argument arrays. -/
theorem V_v35 (c : Dev nD) :
    V m c main_v35 = dx2K (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps0 (fun b => m (c, b)) (Proc.devRef .tc main_v35) = _
  after_results_simp
  rfl

set_option maxHeartbeats 2000000 in
/-- The region's second operand is the regrouped y-offsets. -/
theorem V_v36 (c : Dev nD) :
    V m c main_v36 = dy2K (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps0 (fun b => m (c, b)) (Proc.devRef .tc main_v36) = _
  after_results_simp
  rfl

set_option maxHeartbeats 2000000 in
/-- The host lines after the region, run from ANY contents W of the buffers: @main's result is the host tail of what W
    holds at the region's two result arrays and at the two pair lists. -/
theorem tail_of (W : Valuation τ sig (Elt Ideal)) :
    StableHlo.after hostOps1 W (Proc.devRef .tc main_v63)
      = tailK (W (Proc.devRef .tc main_v37_0)) (W (Proc.devRef .tc main_v37_1))
          (W (Proc.devRef .tc main_arg3)) (W (Proc.devRef .tc main_arg4)) := by
  after_results_simp
  rfl

/-- @main's result after the run: the host tail of the region's two result arrays and the pair lists as launched
    (after the region the contents are the entry contents with the region's arrays overwritten, and no window's
    array is a pair list). -/
theorem tail_v63 (c : Dev nD) :
    Pipeline.afterTail₀ cfgs (dats m) 0 (V0 m) [hostOps1] c main_v63
      = tailK ((dats m 0 c).arrAt 2 cfg0.N) ((dats m 0 c).arrAt 3 cfg0.N) (m ((c : Thread nD τ).loc main_arg3)) (m ((c : Thread nD τ).loc main_arg4)) := by
  have h2 : Pipeline.withArrays (cfgs 0).spec c (V0 m c) (fun w => (dats m 0 c).arrAt w (cfgs 0).N) (Proc.devRef .tc main_v37_0) = (dats m 0 c).arrAt 2 cfg0.N :=
    Pipeline.withArrays_arr spec0 launch0.win.arr_inj c _ _ 2
  have h3 : Pipeline.withArrays (cfgs 0).spec c (V0 m c) (fun w => (dats m 0 c).arrAt w (cfgs 0).N) (Proc.devRef .tc main_v37_1) = (dats m 0 c).arrAt 3 cfg0.N :=
    Pipeline.withArrays_arr spec0 launch0.win.arr_inj c _ _ 3
  have h4 : Pipeline.withArrays (cfgs 0).spec c (V0 m c) (fun w => (dats m 0 c).arrAt w (cfgs 0).N) (Proc.devRef .tc main_arg3) = (m ((c : Thread nD τ).loc main_arg3)) :=
    (Pipeline.withArrays_of_ne _ c (V0 m c) _ main_arg3 (by exact (by decide : ∀ w, Pipeline.arrRef spec0 w ≠ main_arg3))).trans
      (V_main_arg3 m c)
  have h5 : Pipeline.withArrays (cfgs 0).spec c (V0 m c) (fun w => (dats m 0 c).arrAt w (cfgs 0).N) (Proc.devRef .tc main_arg4) = (m ((c : Thread nD τ).loc main_arg4)) :=
    (Pipeline.withArrays_of_ne _ c (V0 m c) _ main_arg4 (by exact (by decide : ∀ w, Pipeline.arrRef spec0 w ≠ main_arg4))).trans
      (V_main_arg4 m c)
  unfold Pipeline.afterTail₀
  show StableHlo.after hostOps1 (Pipeline.withArrays (cfgs 0).spec c (V0 m c) (fun w => (dats m 0 c).arrAt w (cfgs 0).N)) (Proc.devRef .tc main_v63) = _
  rw [tail_of, h2, h3, h4, h5]

end Cert.KernelIdeal.HostRead

end
-- ==== Proof.LibPairs.lean ====
/-
  Small layout reads over variable extents and any element type:
  two vectors laid end to end, read in the first and in the second half; two one-column matrices side by side, read in
  each column; a vector broadcast to a one-column matrix,
  read at a row; one column of a matrix cut out and flattened, read at an entry.
-/
import Idealize.ShloMosaic.Lib.ValueIdx
import Idealize.ShloMosaic.Lib.Pipeline.Value

noncomputable section

namespace Cert.Lib.Pairs

open Idealize.ShloMosaic Idealize.ShloMosaic.ValueIdx

variable {α : Type}

/-- Two vectors of length M end to end: entry j of the first half is the first vector's entry j. -/
theorem cat_left {M M2 : Nat} (x y : (⟨1, ![M]⟩ : Shape).Idx → α)
    (h : Shape.Concatenates [(⟨1, ![M]⟩ : Shape), ⟨1, ![M]⟩] ⟨1, ![M2]⟩ 0) (j : Fin M) (hj : j.val < M2) :
    concatenate ⟨1, ![M2]⟩ 0 [⟨⟨1, ![M]⟩, x⟩, ⟨⟨1, ![M]⟩, y⟩] h (ix1 ⟨j.val, hj⟩) = x (ix1 j) :=
  concatenate_pair_apply_left 0 x y h _ rfl (ix1 j) (fun b => match b with | ⟨0, _⟩ => rfl)

/-- Two vectors of length M end to end: entry M + j is the second vector's entry j. -/
theorem cat_right {M M2 : Nat} (x y : (⟨1, ![M]⟩ : Shape).Idx → α)
    (h : Shape.Concatenates [(⟨1, ![M]⟩ : Shape), ⟨1, ![M]⟩] ⟨1, ![M2]⟩ 0) (j : Fin M) (hj : M + j.val < M2) :
    concatenate ⟨1, ![M2]⟩ 0 [⟨⟨1, ![M]⟩, x⟩, ⟨⟨1, ![M]⟩, y⟩] h (ix1 ⟨M + j.val, hj⟩) = y (ix1 j) :=
  concatenate_pair_apply_right 0 x y h _ rfl rfl (ix1 j) (fun b hb => absurd (Subsingleton.elim _ _) hb)
    (by show j.val + M = M + j.val; omega)

/-- Two one-column matrices side by side: column 0 of the result is the first. -/
theorem cols_left {N : Nat} (u v : (⟨2, ![N, 1]⟩ : Shape).Idx → α)
    (h : Shape.Concatenates [(⟨2, ![N, 1]⟩ : Shape), ⟨2, ![N, 1]⟩] ⟨2, ![N, 2]⟩ 1) (r : Fin N) :
    concatenate ⟨2, ![N, 2]⟩ 1 [⟨⟨2, ![N, 1]⟩, u⟩, ⟨⟨2, ![N, 1]⟩, v⟩] h (ix2 r (0 : Fin 2)) = u (ix2 r (0 : Fin 1)) :=
  concatenate_pair_apply_left 1 u v h _ rfl (ix2 r 0) (fun b => match b with | ⟨0, _⟩ => rfl | ⟨1, _⟩ => rfl)

/-- Two one-column matrices side by side: column 1 of the result is the second. -/
theorem cols_right {N : Nat} (u v : (⟨2, ![N, 1]⟩ : Shape).Idx → α)
    (h : Shape.Concatenates [(⟨2, ![N, 1]⟩ : Shape), ⟨2, ![N, 1]⟩] ⟨2, ![N, 2]⟩ 1) (r : Fin N) :
    concatenate ⟨2, ![N, 2]⟩ 1 [⟨⟨2, ![N, 1]⟩, u⟩, ⟨⟨2, ![N, 1]⟩, v⟩] h (ix2 r (1 : Fin 2)) = v (ix2 r (0 : Fin 1)) :=
  concatenate_pair_apply_right 1 u v h _ rfl rfl (ix2 r 0)
    (fun b hb => match b, hb with | ⟨0, _⟩, _ => rfl | ⟨1, _⟩, hb => absurd rfl hb)
    (by show 0 + 1 = 1; rfl)

/-- A vector broadcast along axis 0 into a one-column matrix: row j holds the vector's entry j. -/
theorem bcastCol_apply {M : Nat} (v : (⟨1, ![M]⟩ : Shape).Idx → α) (dims : Fin 1 → Fin 2) (hd : dims 0 = 0)
    (h : (⟨1, ![M]⟩ : Shape).BroadcastsInDim ⟨2, ![M, 1]⟩ dims) (j : Fin M) (c : Fin 1) :
    broadcastInDim ⟨2, ![M, 1]⟩ dims h v (ix2 j c) = v (ix1 j) := by
  refine broadcastInDim_apply (s := ⟨1, ![M]⟩) (t := ⟨2, ![M, 1]⟩) dims h v (ix2 j c) (ix1 j) (fun a => ?_)
  match a with
  | ⟨0, _⟩ =>
    show j.val = if M = 1 then 0 else ((ix2 j c) (dims 0)).val
    rw [hd]
    split
    · have := j.isLt; omega
    · rfl

/-- Column c of an [M, C] matrix cut out as [M, 1] and flattened to [M]: entry j is the matrix entry (j, c). -/
theorem col_apply {M C : Nat} (g : (⟨2, ![M, C]⟩ : Shape).Idx → α) (c : Fin C) (off : Fin 2 → Nat)
    (ho0 : off 0 = 0) (ho1 : off 1 = c.val)
    (hs : (⟨2, ![M, C]⟩ : Shape).Slices off ⟨2, ![M, 1]⟩) (hc : (⟨2, ![M, 1]⟩ : Shape).ShapeCasts ⟨1, ![M]⟩) (j : Fin M) :
    shapeCast ⟨1, ![M]⟩ (extractStridedSlice ⟨2, ![M, 1]⟩ off g hs) hc (ix1 j) = g (ix2 j c) := by
  rw [shapeCast_apply _ hc (ix1 j) (ix2 j (0 : Fin 1)) (by
    rw [Shape.rowMajor_val_two, Shape.rowMajor_val_one]; show j.val * 1 + 0 = j.val; omega)]
  exact extractStridedSlice_apply off g hs _ (ix2 j c) (fun a => match a with
    | ⟨0, _⟩ => by show j.val = off 0 + j.val; omega
    | ⟨1, _⟩ => by show c.val = off 1 + 0; omega)

end Cert.Lib.Pairs

end
-- ==== Proof.LibGatherCols.lean ====
/-
  `stablehlo.gather` READ AT AN INDEX, for start indices of shape `[M, 1]` with the index vector on axis 1 (what
  `x[idx]` lowers to for an integer vector `idx : [M]`), in two layouts of the operand.

  * Flat operand `x : [N]` (offset_dims `[]`, collapsed_slice_dims `[0]`, start_index_map `[0]`, slice_sizes `[1]`):
    result element `e` is `x` at the start index `idx[e, 0]`, read as a signed integer and clamped into `[0, N − 1]`
    (`gather_flat_apply`).
  * Table operand `x : [N, C]` (offset_dims `[1]`, collapsed_slice_dims `[0]`, start_index_map `[0]`, slice_sizes
    `[1, C]`): result element `(e, c)` is `x` at row `idx[e, 0]` (signed, clamped into `[0, N − 1]`) and column `c`
    (`gather_rows_apply`): axis 0 of the operand is collapsed and start-indexed, axis 1 is the offset axis, whose
    slice is the whole axis, so its start is 0 and its offset coordinate is the result's column.

  Both hold for variable extents `N`, `C`, `M` and any index width `w`.
-/
import Idealize.ShloMosaic.Lib.ValueIdx

noncomputable section

open scoped BigOperators

namespace Cert.Lib.GatherCols

open Idealize.ShloMosaic Idealize.ShloMosaic.ValueIdx

variable {α : Type}

/-! ## Flat operand `[N]`, start indices `[M, 1]`, result `[M]` -/

/-- The dimension numbers of a gather of single elements of a flat operand `[N]` at start indices `[M, 1]`
    (index vector on axis 1), result `[M]`; their conditions `wf` are decided on a program's literal shapes. -/
abbrev flatDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- The flat gather read at `e`: the operand at the start index `idx[e, 0]`, read signed and clamped into
    `[0, N − 1]`. -/
theorem gather_flat_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (flatDims N M wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (flatDims N M wf).start (ix1 e) idx 0 + (flatDims N M wf).batchCoord (ix1 e) 0
    + (flatDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N M wf).startIndexMap from List.mem_singleton.mpr rfl)]
  have hsi : (flatDims N M wf).siIdx (ix1 e) ⟨List.idxOf (0 : Fin 1) (flatDims N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Table operand `[N, C]`, start indices `[M, 1]`, result `[M, C]` -/

/-- The dimension numbers of a gather of whole rows of a table `[N, C]` at start indices `[M, 1]` (index vector on
    axis 1), result `[M, C]`: axis 0 collapsed and start-indexed, axis 1 the offset axis with slice size `C`. -/
abbrev rowDims (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The row gather read at `(e, c)`: the table at row `idx[e, 0]`, read signed and clamped into `[0, N − 1]`, and
    column `c`. -/
theorem gather_rows_apply {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (c : Fin C) :
    Host.gather (rowDims N C M wf) x idx (ix2 e c)
      = x (ix2 ⟨min (idx (ix2 e (0 : Fin 1))).toInt.toNat (N - 1), by omega⟩ c) := by
  unfold Host.gather
  congr 1
  funext a
  refine Fin.ext ?_
  show (rowDims N C M wf).start (ix2 e c) idx a + (rowDims N C M wf).batchCoord (ix2 e c) a
    + (rowDims N C M wf).offCoord (ix2 e c) a = _
  rw [GatherDims.batchCoord_eq_zero _ _ _ List.not_mem_nil, Nat.add_zero]
  match a with
  | ⟨0, _⟩ =>
    -- the collapsed, start-indexed axis: no offset coordinate, the start is the clamped index
    rw [GatherDims.offCoord_eq_zero _ _ _
      (fun h => ((GatherDims.mem_sKept _ _).mp h).1 (List.mem_singleton.mpr rfl)), Nat.add_zero]
    unfold GatherDims.start
    rw [dif_pos (show (⟨0, by omega⟩ : Fin 2) ∈ (rowDims N C M wf).startIndexMap from List.mem_singleton.mpr rfl)]
    have hsi : (rowDims N C M wf).siIdx (ix2 e c)
        ⟨List.idxOf (⟨0, by omega⟩ : Fin 2) (rowDims N C M wf).startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- the offset axis: not in the start index map, so the start is 0; the offset coordinate is the result's column
    have hk : (⟨1, by omega⟩ : Fin 2) ∈ (rowDims N C M wf).sKept :=
      (GatherDims.mem_sKept _ _).mpr
        ⟨fun h => Nat.one_ne_zero (congrArg Fin.val (List.mem_singleton.mp h)), List.not_mem_nil⟩
    have hs : (rowDims N C M wf).start (ix2 e c) idx ⟨1, by omega⟩ = 0 := by
      unfold GatherDims.start
      rw [dif_neg (fun h => Nat.one_ne_zero (congrArg Fin.val (List.mem_singleton.mp h)))]
    rw [hs, Nat.zero_add]
    unfold GatherDims.offCoord
    rw [dif_pos hk]
    rfl

end Cert.Lib.GatherCols

end
-- ==== Proof.LibScatterCat.lean ====
/-
  THE ACCUMULATING SCATTER OF A FLAT ARRAY, READ AT AN INDEX, AND OVER A CONCATENATION.

  For a flat operand `x : [N]`, scatter indices `idx : [M, 1]` (one scalar index per update) and updates
  `upd : [M]`, the accumulating scatter (`zeros.at[idx].add(upd)`) at the ideal instance is, at element `i`,
  `x i` plus the sum of the updates `upd j` whose index `idx[j, 0]`, read as a signed integer, is `i`
  (`scatterAdd_apply`); an update whose index is outside `[0, N)` contributes nothing. Since that is a sum over
  the update list, scattering a concatenation of two update lists at the concatenation of their index lists is
  scattering the first list and then the second into the result (`scatterAdd_append`): sums in the extended
  reals reassociate freely.
-/
import Idealize.ShloMosaic.Lib.ValueIdx

noncomputable section

open scoped BigOperators

namespace Cert.Lib.ScatterCat

open Idealize.ShloMosaic Idealize.ShloMosaic.ValueIdx

/-- The dimension numbers of `zeros.at[idx].add(upd)` for a flat operand `[N]`, scatter indices `[M, 1]` and
    updates `[M]`: no update window axes, the operand's one axis inserted, each index vector one scalar for it. -/
abbrev addDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- The window of update `j` starts, on the operand's one axis, at its scatter index `idx[j, 0]` read signed. -/
theorem start_eq {N M w : Nat} (wf : ScatterDims.WF ⟨1, ![N]⟩ ⟨2, ![M, 1]⟩ ⟨1, ![M]⟩ [] [0] [0] 1)
    (idx : IVec ⟨2, ![M, 1]⟩ w) (j : Fin M) :
    (addDims N M wf).start (ix1 j) idx 0 = (idx (ix2 j (0 : Fin 1))).toInt := by
  unfold ScatterDims.start
  rw [dif_pos (show (0 : Fin 1) ∈ (addDims N M wf).scatterDimsToOperandDims from List.mem_singleton.mpr rfl)]
  have hsi : (addDims N M wf).siIdx (ix1 j) ⟨List.idxOf (0 : Fin 1) (addDims N M wf).scatterDimsToOperandDims,
      List.idxOf_lt_length_iff.2 (List.mem_singleton.mpr rfl)⟩ = ix2 j (0 : Fin 1) := by
    funext b; refine Fin.ext ?_
    match b with
    | ⟨0, _⟩ => rfl
    | ⟨1, _⟩ => rfl
  rw [hsi]

/-- The operand's one axis is an inserted window axis: the window coordinate on it is `0`. -/
theorem window_eq {N M : Nat} (wf : ScatterDims.WF ⟨1, ![N]⟩ ⟨2, ![M, 1]⟩ ⟨1, ![M]⟩ [] [0] [0] 1) (j : Fin M) :
    (addDims N M wf).window (ix1 j) 0 = 0 := by
  unfold ScatterDims.window
  rw [dif_neg]
  simp [ScatterDims.sKept, Shape.kept]

/-- On the operand's one axis, start plus window coordinate of update `j` is its scatter index read signed. -/
theorem start_add_window {N M w : Nat} (wf : ScatterDims.WF ⟨1, ![N]⟩ ⟨2, ![M, 1]⟩ ⟨1, ![M]⟩ [] [0] [0] 1)
    (idx : IVec ⟨2, ![M, 1]⟩ w) (j : Fin M) (a : Fin 1) :
    (addDims N M wf).start (ix1 j) idx a + ((addDims N M wf).window (ix1 j) a : ℤ)
      = (idx (ix2 j (0 : Fin 1))).toInt := by
  obtain rfl : a = 0 := Subsingleton.elim _ _
  rw [start_eq, window_eq]; simp

/-- Update `j` lands on element `i` exactly when its scatter index, read signed, is `i`. -/
theorem resultIdx?_eq_some_iff {N M w : Nat} (wf : ScatterDims.WF ⟨1, ![N]⟩ ⟨2, ![M, 1]⟩ ⟨1, ![M]⟩ [] [0] [0] 1)
    (idx : IVec ⟨2, ![M, 1]⟩ w) (j : Fin M) (i : Fin N) :
    (addDims N M wf).resultIdx? (ix1 j) idx = some (ix1 i) ↔ (idx (ix2 j (0 : Fin 1))).toInt = (i.val : ℤ) := by
  unfold ScatterDims.resultIdx?
  constructor
  · intro h
    split at h
    · rename_i hall
      have h0 := congrArg Fin.val (congrFun (Option.some.inj h) (0 : Fin 1))
      have hb := hall (0 : Fin 1)
      rw [start_add_window] at hb
      change ((addDims N M wf).start (ix1 j) idx 0 + ((addDims N M wf).window (ix1 j) 0 : ℤ)).toNat = i.val at h0
      rw [start_add_window] at h0
      omega
    · exact absurd h (by simp)
  · intro hz
    have hall : ∀ a : Fin 1, 0 ≤ (addDims N M wf).start (ix1 j) idx a + ((addDims N M wf).window (ix1 j) a : ℤ)
        ∧ (addDims N M wf).start (ix1 j) idx a + ((addDims N M wf).window (ix1 j) a : ℤ)
            < ((⟨1, ![N]⟩ : Shape).size a : ℤ) := by
      intro a
      rw [start_add_window, hz]
      obtain rfl : a = 0 := Subsingleton.elim _ _
      have hi : (i.val : ℤ) < (N : ℤ) := by exact_mod_cast i.isLt
      exact ⟨by omega, hi⟩
    rw [dif_pos hall]
    congr 1
    funext a
    obtain rfl : a = 0 := Subsingleton.elim _ _
    refine Fin.ext ?_
    change ((addDims N M wf).start (ix1 j) idx 0 + ((addDims N M wf).window (ix1 j) 0 : ℤ)).toNat = i.val
    rw [start_add_window, hz]
    omega

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-- The scatter read at element `i`: the operand's element plus the updates whose scatter index is `i`. -/
theorem scatterAdd_apply {φ : FTy} {N M w : Nat} (wf : ScatterDims.WF ⟨1, ![N]⟩ ⟨2, ![M, 1]⟩ ⟨1, ![M]⟩ [] [0] [0] 1)
    (x : FVec Ideal ⟨1, ![N]⟩ φ) (idx : IVec ⟨2, ![M, 1]⟩ w) (upd : FVec Ideal ⟨1, ![M]⟩ φ) (i : Fin N) :
    Host.scatterAdd (F := Ideal) (addDims N M wf) x idx upd (ix1 i)
      = x (ix1 i) + ∑ j : Fin M, if (idx (ix2 j (0 : Fin 1))).toInt = (i.val : ℤ) then upd (ix1 j) else 0 := by
  show Ideal.hostScatterAdd (addDims N M wf) x idx upd (ix1 i) = _
  unfold Ideal.hostScatterAdd
  congr 1
  rw [Finset.sum_filter, sum_idx1]
  refine Finset.sum_congr rfl fun j _ => ?_
  by_cases h : (idx (ix2 j (0 : Fin 1))).toInt = (i.val : ℤ)
  · rw [if_pos h, if_pos ((resultIdx?_eq_some_iff wf idx j i).2 h)]
  · rw [if_neg h, if_neg (fun h' => h ((resultIdx?_eq_some_iff wf idx j i).1 h'))]

/-- Scattering the concatenation of two update lists at the concatenation of their index lists is scattering the
    first list, then the second into the result: at each element both are the operand's element plus the updates of
    both lists that land on it. -/
theorem scatterAdd_append {φ : FTy} {N M M2 w : Nat} (hM2 : M2 = M + M)
    (wf : ScatterDims.WF ⟨1, ![N]⟩ ⟨2, ![M, 1]⟩ ⟨1, ![M]⟩ [] [0] [0] 1)
    (wf2 : ScatterDims.WF ⟨1, ![N]⟩ ⟨2, ![M2, 1]⟩ ⟨1, ![M2]⟩ [] [0] [0] 1)
    (x : FVec Ideal ⟨1, ![N]⟩ φ)
    (ia ib : IVec ⟨2, ![M, 1]⟩ w) (iab : IVec ⟨2, ![M2, 1]⟩ w)
    (ua ub : FVec Ideal ⟨1, ![M]⟩ φ) (uab : FVec Ideal ⟨1, ![M2]⟩ φ)
    (hia : ∀ j : Fin M, iab (ix2 (⟨j.val, by omega⟩ : Fin M2) (0 : Fin 1)) = ia (ix2 j 0))
    (hib : ∀ j : Fin M, iab (ix2 (⟨M + j.val, by omega⟩ : Fin M2) (0 : Fin 1)) = ib (ix2 j 0))
    (hua : ∀ j : Fin M, uab (ix1 (⟨j.val, by omega⟩ : Fin M2)) = ua (ix1 j))
    (hub : ∀ j : Fin M, uab (ix1 (⟨M + j.val, by omega⟩ : Fin M2)) = ub (ix1 j)) :
    Host.scatterAdd (F := Ideal) (addDims N M2 wf2) x iab uab
      = Host.scatterAdd (F := Ideal) (addDims N M wf) (Host.scatterAdd (F := Ideal) (addDims N M wf) x ia ua) ib ub := by
  subst hM2
  funext i
  obtain ⟨i0, rfl⟩ : ∃ i0, i = ix1 i0 := ⟨i 0, eq_ix1 i⟩
  rw [scatterAdd_apply, scatterAdd_apply, scatterAdd_apply, Fin.sum_univ_add, add_assoc]
  congr 2
  · refine Finset.sum_congr rfl fun j _ => ?_
    have e : (Fin.castAdd M j : Fin (M + M)) = ⟨j.val, by omega⟩ := Fin.ext rfl
    rw [e, hia, hua]
  · refine Finset.sum_congr rfl fun j _ => ?_
    have e : (Fin.natAdd M j : Fin (M + M)) = ⟨M + j.val, by omega⟩ := Fin.ext rfl
    rw [e, hib, hub]

end Cert.Lib.ScatterCat

end
-- ==== Proof.Bridge.lean ====
/-
  The two programs compute one function of the five argument arrays.

  * Offsets.  Column 0 of the stacked centre table's row n is cx n and column 1 is cy n, and a gather of rows of the
    table clamps its start index exactly as a gather of entries of cx (or cy) does; so column 0 of the gathered rows is
    the gather of cx and column 1 the gather of cy: the kernel's dx, dy are the reference's.
  * Forces.  Regrouping [16777216] as [16384, 1024], applying the force entry by entry and flattening again is applying
    the force entry by entry on the flat arrays: the regrouping is a re-indexing by a bijection and its inverse.
  * Accumulation.  Scatter-adding f followed by −f, laid end to end, at the sources followed by the destinations, laid
    end to end, gives at node n:  0 + Σ_{k < 2E, idx k = n} upd k,  and the sum over 2E splits into the sum over the
    first E and the sum over the last E — the reference's two chained scatter-adds.  Addition on the extended reals is
    commutative and associative, so no finiteness is used.
  * Energy.  The same sum of absolute values of the same two arrays laid end to end.
-/
import proofs.«173889_j40604620816577_2_alg».proof.Proof.KStages
import proofs.«173889_j40604620816577_2_alg».proof.Proof.Gen.ReferenceIdeal.Read
import proofs.«173889_j40604620816577_2_alg».proof.Proof.LibPairs
import proofs.«173889_j40604620816577_2_alg».proof.Proof.LibGatherCols
import proofs.«173889_j40604620816577_2_alg».proof.Proof.LibScatterCat

noncomputable section

namespace Cert.Bridge

open Cert.KernelIdeal Cert.KernelIdeal.Stages Idealize.ShloMosaic Idealize.ShloMosaic.ValueIdx
open Cert.ReferenceIdeal.Read

variable (x0 : (⟨S2097152, .f32⟩ : BufTy).Contents (Elt Ideal)) (x1 x2 : (⟨S1048576, .f32⟩ : BufTy).Contents (Elt Ideal))
  (x3 x4 : (⟨S16777216, .i32⟩ : BufTy).Contents (Elt Ideal))

/-! ## Centres and start indices: the same lines in both programs -/

theorem cx_eq : val_main_v3 (F := Ideal) x0 x1 = cxK x0 x1 := rfl
theorem cy_eq : val_main_v7 (F := Ideal) x0 x2 = cyK x0 x2 := rfl

/-! ## Offsets -/

/-- Column 0 of the table's rows at a pair list is the x-centres gathered at that list. -/
theorem col0_rows (x : (⟨S16777216, .i32⟩ : BufTy).Contents (Elt Ideal)) :
    col0K (rowsK x0 x1 x2 x)
      = Host.gather Cert.ReferenceIdeal.gather_S1048576_S16777216x1_S16777216_n_0_n_n_0_1_1 (cxK x0 x1) (startK x) := by
  funext e
  obtain ⟨e0, rfl⟩ : ∃ e0 : Fin 16777216, e = ix1 e0 := ⟨e 0, eq_ix1 e⟩
  unfold col0K rowsK
  rw [Cert.Lib.Pairs.col_apply (M := 16777216) (C := 2) _ (0 : Fin 2) ![0, 0] rfl rfl _ _ e0]
  refine (Cert.Lib.GatherCols.gather_rows_apply (N := 1048576) (C := 2) (M := 16777216) (by omega) _ _ _ e0 (0 : Fin 2)).trans ?_
  refine Eq.trans ?_ (Cert.Lib.GatherCols.gather_flat_apply (N := 1048576) (M := 16777216) (by omega) _ _ _ e0).symm
  unfold tableK
  rw [Cert.Lib.Pairs.cols_left (N := 1048576)]
  exact Cert.Lib.Pairs.bcastCol_apply (M := 1048576) _ _ rfl _ _ _

/-- Column 1 of the table's rows at a pair list is the y-centres gathered at that list. -/
theorem col1_rows (x : (⟨S16777216, .i32⟩ : BufTy).Contents (Elt Ideal)) :
    col1K (rowsK x0 x1 x2 x)
      = Host.gather Cert.ReferenceIdeal.gather_S1048576_S16777216x1_S16777216_n_0_n_n_0_1_1 (cyK x0 x2) (startK x) := by
  funext e
  obtain ⟨e0, rfl⟩ : ∃ e0 : Fin 16777216, e = ix1 e0 := ⟨e 0, eq_ix1 e⟩
  unfold col1K rowsK
  rw [Cert.Lib.Pairs.col_apply (M := 16777216) (C := 2) _ (1 : Fin 2) ![0, 1] rfl rfl _ _ e0]
  refine (Cert.Lib.GatherCols.gather_rows_apply (N := 1048576) (C := 2) (M := 16777216) (by omega) _ _ _ e0 (1 : Fin 2)).trans ?_
  refine Eq.trans ?_ (Cert.Lib.GatherCols.gather_flat_apply (N := 1048576) (M := 16777216) (by omega) _ _ _ e0).symm
  unfold tableK
  rw [Cert.Lib.Pairs.cols_right (N := 1048576)]
  exact Cert.Lib.Pairs.bcastCol_apply (M := 1048576) _ _ rfl _ _ _

/-- The kernel's x-offsets are the reference's. -/
theorem dx_eq : dxK x0 x1 x2 x3 x4 = val_main_v22 (F := Ideal) x0 x1 x3 x4 := by
  unfold dxK
  rw [col0_rows, col0_rows]
  rfl

/-- The kernel's y-offsets are the reference's. -/
theorem dy_eq : dyK x0 x1 x2 x3 x4 = val_main_v37 (F := Ideal) x0 x2 x3 x4 := by
  unfold dyK
  rw [col1_rows, col1_rows]
  rfl

/-! ## Forces -/

/-- The reference's x-force is the force of its offsets, entry by entry. -/
theorem fx_ref : val_main_v53 (F := Ideal) x0 x1 x2 x3 x4
    = fun e => Cert.Force.fX (val_main_v22 (F := Ideal) x0 x1 x3 x4 e) (val_main_v37 (F := Ideal) x0 x2 x3 x4 e) := rfl

/-- The reference's y-force likewise. -/
theorem fy_ref : val_main_v55 (F := Ideal) x0 x1 x2 x3 x4
    = fun e => Cert.Force.fY (val_main_v22 (F := Ideal) x0 x1 x3 x4 e) (val_main_v37 (F := Ideal) x0 x2 x3 x4 e) := rfl

/-- Regroup, apply the x-force entry by entry, flatten: the x-force entry by entry on the flat arrays. -/
theorem flat_GX (dx dy : (⟨S16777216, .f32⟩ : BufTy).Contents (Elt Ideal)) :
    shapeCast S16777216 (GX (shapeCast S16384x1024 dx Gen.shapeCasts_S16777216_S16384x1024)
        (shapeCast S16384x1024 dy Gen.shapeCasts_S16777216_S16384x1024)) Gen.shapeCasts_S16384x1024_S16777216
      = fun e => Cert.Force.fX (dx e) (dy e) := by
  funext e
  exact congrArg₂ Cert.Force.fX
    (congrFun (shapeCast_shapeCast dx Gen.shapeCasts_S16777216_S16384x1024 Gen.shapeCasts_S16384x1024_S16777216) e)
    (congrFun (shapeCast_shapeCast dy Gen.shapeCasts_S16777216_S16384x1024 Gen.shapeCasts_S16384x1024_S16777216) e)

/-- The same for the y-force. -/
theorem flat_GY (dx dy : (⟨S16777216, .f32⟩ : BufTy).Contents (Elt Ideal)) :
    shapeCast S16777216 (GY (shapeCast S16384x1024 dx Gen.shapeCasts_S16777216_S16384x1024)
        (shapeCast S16384x1024 dy Gen.shapeCasts_S16777216_S16384x1024)) Gen.shapeCasts_S16384x1024_S16777216
      = fun e => Cert.Force.fY (dx e) (dy e) := by
  funext e
  exact congrArg₂ Cert.Force.fY
    (congrFun (shapeCast_shapeCast dx Gen.shapeCasts_S16777216_S16384x1024 Gen.shapeCasts_S16384x1024_S16777216) e)
    (congrFun (shapeCast_shapeCast dy Gen.shapeCasts_S16777216_S16384x1024 Gen.shapeCasts_S16384x1024_S16777216) e)

/-! ## Accumulation -/

/-- A pair-list entry with a negative value wrapped: i < 0 reads as i + N. -/
def wrapS (i : BitVec 32) : BitVec 32 := Scalar.select (IntOp.cmpi .slt i 0#32) (IntOp.addi i 1048576#32) i

/-- The start-index column of one list, at row j. -/
theorem startK_apply (x : (⟨S16777216, .i32⟩ : BufTy).Contents (Elt Ideal)) (j : Fin 16777216) :
    startK x (ix2 j (0 : Fin 1)) = wrapS (x (ix1 j)) := by
  unfold startK
  rw [Cert.Lib.Pairs.bcastCol_apply (M := 16777216) _ _ rfl _ j 0]
  rfl

/-- The start-index column of the two lists end to end: its first half is the first list's. -/
theorem start2K_left (j : Fin 16777216) :
    start2K x3 x4 (ix2 (⟨j.val, by omega⟩ : Fin 33554432) (0 : Fin 1)) = startK x3 (ix2 j 0) := by
  rw [startK_apply]
  unfold start2K
  rw [Cert.Lib.Pairs.bcastCol_apply (M := 33554432) _ _ rfl _ _ 0]
  exact congrArg wrapS (Cert.Lib.Pairs.cat_left (M := 16777216) (M2 := 33554432) x3 x4 _ j _)

/-- Its second half is the second list's. -/
theorem start2K_right (j : Fin 16777216) :
    start2K x3 x4 (ix2 (⟨16777216 + j.val, by omega⟩ : Fin 33554432) (0 : Fin 1)) = startK x4 (ix2 j 0) := by
  rw [startK_apply]
  unfold start2K
  rw [Cert.Lib.Pairs.bcastCol_apply (M := 33554432) _ _ rfl _ _ 0]
  exact congrArg wrapS (Cert.Lib.Pairs.cat_right (M := 16777216) (M2 := 33554432) x3 x4 _ j _)

/-- The reference's accumulation of a force component: +f scattered at the sources, then −f at the destinations. -/
def chainR (f : (⟨S16777216, .f32⟩ : BufTy).Contents (Elt Ideal)) (x3 x4 : (⟨S16777216, .i32⟩ : BufTy).Contents (Elt Ideal)) :
    (⟨S1048576, .f32⟩ : BufTy).Contents (Elt Ideal) :=
  Host.scatterAdd (F := Ideal) Cert.ReferenceIdeal.scatter_S1048576_S16777216x1_S16777216_n_0_0_1
    (Host.scatterAdd (F := Ideal) Cert.ReferenceIdeal.scatter_S1048576_S16777216x1_S16777216_n_0_0_1
      (broadcastInDim S1048576 ![] Gen.bcast_S_S1048576 (constant (F := Ideal) S_ .f32 0x00000000#32)) (startK x3) f)
    (startK x4) (Host.negf (F := Ideal) f)

/-- One scatter of (f, −f) at (sources, destinations) laid end to end is the two scatters chained. -/
theorem scat_eq (f : (⟨S16777216, .f32⟩ : BufTy).Contents (Elt Ideal)) : scatK f x3 x4 = chainR f x3 x4 := by
  unfold scatK chainR
  exact Cert.Lib.ScatterCat.scatterAdd_append (N := 1048576) (M := 16777216) (M2 := 33554432) (by norm_num) _ _ _
    (startK x3) (startK x4) (start2K x3 x4) f (Host.negf (F := Ideal) f) _
    (start2K_left x3 x4) (start2K_right x3 x4)
    (fun j => Cert.Lib.Pairs.cat_left (M := 16777216) (M2 := 33554432) f (Host.negf (F := Ideal) f) _ j _)
    (fun j => Cert.Lib.Pairs.cat_right (M := 16777216) (M2 := 33554432) f (Host.negf (F := Ideal) f) _ j _)

theorem ex_ref : val_main_v71 (F := Ideal) x0 x1 x2 x3 x4 = chainR (val_main_v53 (F := Ideal) x0 x1 x2 x3 x4) x3 x4 := rfl
theorem ey_ref : val_main_v87 (F := Ideal) x0 x1 x2 x3 x4 = chainR (val_main_v55 (F := Ideal) x0 x1 x2 x3 x4) x3 x4 := rfl

/-! ## Energy -/

theorem energy_ref : val_main_v90 (F := Ideal) x0 x1 x2 x3 x4
    = energyK (val_main_v71 (F := Ideal) x0 x1 x2 x3 x4) (val_main_v87 (F := Ideal) x0 x1 x2 x3 x4) := rfl

/-- THE BRIDGE: the kernel's host tail applied to the region's two force arrays of the kernel's offsets is the
    reference's result, as functions of the five argument arrays. -/
theorem result_eq :
    tailK (GX (dx2K x0 x1 x2 x3 x4) (dy2K x0 x1 x2 x3 x4)) (GY (dx2K x0 x1 x2 x3 x4) (dy2K x0 x1 x2 x3 x4)) x3 x4
      = val_main_v90 (F := Ideal) x0 x1 x2 x3 x4 := by
  unfold tailK dx2K dy2K
  rw [flat_GX, flat_GY, scat_eq, scat_eq, dx_eq, dy_eq, energy_ref, ex_ref, ey_ref, fx_ref, fy_ref]

end Cert.Bridge

end
-- ==== Proof.KRun.lean ====
/-
  The kernel program's run, with @main's result named: every weakly fair execution terminates with the result
  buffer holding the reference's function of the five argument arrays, and the argument arrays unchanged.
  The region leaves its two result arrays at the x- and y-force arrays of the offsets it was given; the host lines
  before the region give it the offsets of the argument arrays; the host lines after it accumulate and sum; and that
  composite is the reference's function of the arguments.
-/
import proofs.«173889_j40604620816577_2_alg».proof.Proof.KRegion
import proofs.«173889_j40604620816577_2_alg».proof.Proof.KHost
import proofs.«173889_j40604620816577_2_alg».proof.Proof.Bridge

noncomputable section

namespace Cert.KernelIdeal.RunValue

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- What @main's result buffer holds after the host tail: the reference's function of the argument arrays. -/
theorem result (c : Dev nD) :
    Pipeline.afterTail₀ cfgs (dats m) 0 (V0 m) [hostOps1] c main_v63
      = Cert.ReferenceIdeal.Read.val_main_v90 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [HostRead.tail_v63, Region.final2, Region.final3, HostRead.V_v35, HostRead.V_v36]
  exact Cert.Bridge.result_eq _ _ _ _ _

/-- The run: the result at the reference's function of the arguments, the arguments unchanged. -/
theorem run : θ_run (defs (F := Ideal)) (onTc (τ := τ) (main (F := Ideal))) ⟨m, fun _ => 0, ρ⟩ (fun r => ∀ c : Dev nD,
      r.2.mem ((c.tc : Thread nD τ).loc main_v63)
        = Cert.ReferenceIdeal.Read.val_main_v90 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨((h c).2 main_v63 (Pipeline.mem_restRefs_of main_v63 (by decide) (by decide))).trans (result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.RunValue

end
-- ==== Proof.lean ====
/-
  The certificate of a pairwise repulsion energy.  Both programs take node positions and sizes and two lists of
  16777216 candidate pairs (sources and destinations) over 1048576 nodes, form the node centres, the pairs' centre
  offsets (dx, dy), the force (dx, dy)·(1/2)/(dx² + dy² + ε) on pairs with |dx| < 16 and |dy| < 16 (zero otherwise),
  accumulate +force on each source node and −force on each destination node, and return the sum of the absolute values
  of the accumulated components.

  The kernel program gathers rows of a stacked [N, 2] centre table, computes the forces in a gridded region over
  [16384, 1024] blocks, and accumulates with ONE scatter of (f, −f) at (sources, destinations) laid end to end; the
  reference gathers the two centre arrays separately, computes on the flat arrays and chains two scatters.  At the
  ideal instance these are one function of the arguments: a stacked gather read column by column is the per-array
  gather, a regrouping and its inverse cancel around an entry-by-entry map, and a sum over the doubled update list
  splits into its two halves (addition on the extended reals is commutative and associative: no finiteness is used).
  The ideal pass rewrote nothing, so the idealization claim has no conjunct.
-/
import proofs.«173889_j40604620816577_2_alg».proof.Defs
import proofs.«173889_j40604620816577_2_alg».proof.Proof.Gen.Kernel
import proofs.«173889_j40604620816577_2_alg».proof.Proof.Gen.Kernel.Frame
import proofs.«173889_j40604620816577_2_alg».proof.Proof.Gen.KernelIdeal
import proofs.«173889_j40604620816577_2_alg».proof.Proof.Gen.KernelIdeal.Frame
import proofs.«173889_j40604620816577_2_alg».proof.Proof.Gen.ReferenceIdeal
import proofs.«173889_j40604620816577_2_alg».proof.Proof.Gen.ReferenceIdeal.Run
import proofs.«173889_j40604620816577_2_alg».proof.Proof.Gen.ReferenceIdeal.Read
import proofs.«173889_j40604620816577_2_alg».proof.Proof.Gen.Pre_finite_inputs
import proofs.«173889_j40604620816577_2_alg».proof.Proof.KRun
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The idealized reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end at the reference's function of those
    arguments: the kernel program by its run read through the region and the host lines, the reference by its run. -/
theorem algebraic : Cert.algebraic_KernelIdeal_ReferenceIdeal := by
  intro m ρ m' ρ' _ hagree
  refine ⟨_, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v90_eq, (hagree c).1, (hagree c).2.1, (hagree c).2.2.1, (hagree c).2.2.2.1,
    (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
